-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x1 .f32) (main_arg5 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S50000x1 : Shape := ⟨2, ![50000, 1]⟩
abbrev S5000x1 : Shape := ⟨2, ![5000, 1]⟩
abbrev S1x64 : Shape := ⟨2, ![1, 64]⟩
abbrev S1x1 : Shape := ⟨2, ![1, 1]⟩

abbrev nBuf : Space → Nat
  | .hbm => 86
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S50000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x1, .f32⟩
  | .hbm, ⟨76, _⟩ => ⟨S850000x1, .f32⟩
  | .hbm, ⟨77, _⟩ => ⟨S850000x1, .f32⟩
  | .hbm, ⟨78, _⟩ => ⟨S_, .f32⟩
  | .hbm, ⟨79, _⟩ => ⟨S50000x1, .f32⟩
  | .hbm, ⟨80, _⟩ => ⟨S850000x1, .i32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S50000, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x1, .f32⟩
  | .local _ .vmem, ⟨9, _⟩ => ⟨S5000x1, .f32⟩
  | .local _ .vmem, ⟨10, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x1, .f32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000, .f32⟩
  | .hbm, ⟨108, _⟩ => ⟨S850000, .f32⟩
  | .hbm, ⟨109, _⟩ => ⟨S_, .i32⟩
  | .hbm, ⟨110, _⟩ => ⟨S850000, .i32⟩
  | .hbm, ⟨111, _⟩ => ⟨S850000, .i1⟩
  | .hbm, ⟨112, _⟩ => ⟨S_, .i32⟩
  | .hbm, ⟨113, _⟩ => ⟨S850000, .i32⟩
  | .hbm, ⟨114, _⟩ => ⟨S850000, .i32⟩
  | .hbm, ⟨115, _⟩ => ⟨S850000, .i32⟩
  | .hbm, ⟨116, _⟩ => ⟨S850000x1, .i32⟩
  | .hbm, ⟨117, _⟩ => ⟨S850000x1, .f32⟩
  | .hbm, ⟨118, _⟩ => ⟨S850000x1, .f32⟩
  | .hbm, ⟨119, _⟩ => ⟨S850000x1, .f32⟩
  | .hbm, ⟨120, _⟩ => ⟨S_, .f32⟩
  | .hbm, ⟨121, _⟩ => ⟨S50000x1, .f32⟩
  | .hbm, ⟨122, _⟩ => ⟨S850000x1, .i32⟩
  | .hbm, ⟨123, _⟩ => ⟨S50000x1, .f32⟩
  | .hbm, ⟨124, _⟩ => ⟨S1x1, .f32⟩
  | .hbm, ⟨125, _⟩ => ⟨S50000x1, .f32⟩
  | .hbm, ⟨126, _⟩ => ⟨S50000x1, .f32⟩
  | .hbm, ⟨127, _⟩ => ⟨S50000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.Graph.lean ====
/-
  The graph part of the computation: the host operations that both programs apply around their dense
  products, named once so that no proof has to open them.

  With the edge list `e` (two rows of 800000 node numbers) and a self-loop appended for each of the
  50000 nodes:

    * `srcNodes e`, `dstNodes e`  — the 850000 source and destination node numbers;
    * `wrapIdx v`                — a node number made non-negative the way array indexing does (add 50000
                                   to a negative one), as a column of gather indices;
    * `degree e`                 — the number of edges arriving at each node, by scatter-adding ones;
    * `invSqrtDeg e`             — 1/√degree where the degree is positive, 0 elsewhere;
    * `edgeWeight e`             — the symmetric normalisation: the product of the two end nodes' factors;
    * `aggregate64 e h`          — for a table `h` of 64 channels per node: gather the source node's row of
                                   every edge, scale it by the edge's weight, add it into the destination's row;
    * `aggregate1 e g`           — the same for a one-channel table;
    * `output e g b`             — the last layer: aggregate, add the bias, drop the unit axis.

  Which element a gather or a scatter touches depends on the edge list's VALUES, so these are kept as
  whole-array functions; both programs feed them equal dense tables, and that is all that is used.
-/
import proofs.«118950_j3573412790951_1_alg».proof.KernelIdeal

noncomputable section

namespace Cert.KernelIdeal.Graph

open Cert.KernelIdeal Idealize.ShloMosaic
open Cert.KernelIdeal.Facts₀ Cert.KernelIdeal.Facts

variable {F : FTy → Type} [FloatOps F] [Facts]

/-- The source node of every edge, then every node once (its self-loop). -/
def srcNodes (e : (⟨S2x800000, .i32⟩ : BufTy).Contents (Elt F)) : (⟨S850000, .i32⟩ : BufTy).Contents (Elt F) :=
  concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0

/-- The destination node of every edge, then every node once. -/
def dstNodes (e : (⟨S2x800000, .i32⟩ : BufTy).Contents (Elt F)) : (⟨S850000, .i32⟩ : BufTy).Contents (Elt F) :=
  concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0

/-- Node numbers as a column of gather indices, a negative one first moved up by the number of nodes. -/
def wrapIdx (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- How many edges (self-loop included) arrive at each node: ones scatter-added at the destinations. -/
def degree (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstNodes e)) (broadcastInDim S850000 ![] bcast_S_S850000 (constant S_ .f32 0x3F800000#32))

/-- 1/√degree where the degree is positive (the degree first clamped below at a tiny constant), 0 elsewhere. -/
def invSqrtDeg (e : (⟨S2x800000, .i32⟩ : BufTy).Contents (Elt F)) : (⟨S50000, .f32⟩ : BufTy).Contents (Elt F) :=
  select (cmpf (F := F) .ogt (degree e) (broadcastInDim S50000 ![] bcast_S_S50000 (constant S_ .f32 0x00000000#32))) (Host.rsqrt (maximumf (degree e) (broadcastInDim S50000 ![] bcast_S_S50000 (constant S_ .f32 0x2B8CBCCC#32)))) (broadcastInDim S50000 ![] bcast_S_S50000 (constant S_ .f32 0x00000000#32))

/-- The weight of every edge: the product of its two end nodes' factors. -/
def edgeWeight (e : (⟨S2x800000, .i32⟩ : BufTy).Contents (Elt F)) : (⟨S850000, .f32⟩ : BufTy).Contents (Elt F) :=
  mulf (Host.gather gather_S50000_S850000x1_S850000_n_0_n_n_0_1_1 (invSqrtDeg e) (wrapIdx (srcNodes e))) (Host.gather gather_S50000_S850000x1_S850000_n_0_n_n_0_1_1 (invSqrtDeg e) (wrapIdx (dstNodes e)))

/-- The weighted neighbourhood sum of a 64-channel table. -/
def aggregate64 (e : (⟨S2x800000, .i32⟩ : BufTy).Contents (Elt F)) (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dstNodes e)) (mulf (Host.gather gather_S50000x64_S850000x1_S850000x64_1_0_n_n_0_1_164 h (wrapIdx (srcNodes e))) (broadcastInDim S850000x64 ![0, 1] bcast_S850000x1_S850000x64_0_1 (broadcastInDim S850000x1 ![0] bcast_S850000_S850000x1_0 (edgeWeight e))))

/-- The weighted neighbourhood sum of a one-channel table. -/
def aggregate1 (e : (⟨S2x800000, .i32⟩ : BufTy).Contents (Elt F)) (g : (⟨S50000x1, .f32⟩ : BufTy).Contents (Elt F)) : (⟨S50000x1, .f32⟩ : BufTy).Contents (Elt F) :=
  Host.scatterAdd scatter_S50000x1_S850000x1_S850000x1_1_0_0_1 (broadcastInDim S50000x1 ![] bcast_S_S50000x1 (constant S_ .f32 0x00000000#32)) (broadcastInDim S850000x1 ![0] bcast_S850000_S850000x1_0 (dstNodes e)) (mulf (Host.gather gather_S50000x1_S850000x1_S850000x1_1_0_n_n_0_1_11 g (wrapIdx (srcNodes e))) (broadcastInDim S850000x1 ![0] bcast_S850000_S850000x1_0 (edgeWeight e)))

/-- The last layer after its dense product `g`: aggregate, add the bias, and read the column as a vector. -/
def output (e : (⟨S2x800000, .i32⟩ : BufTy).Contents (Elt F)) (g : (⟨S50000x1, .f32⟩ : BufTy).Contents (Elt F)) (b : (⟨S1, .f32⟩ : BufTy).Contents (Elt F)) : (⟨S50000, .f32⟩ : BufTy).Contents (Elt F) :=
  shapeCast S50000 (addf (aggregate1 e g) (broadcastInDim S50000x1 ![0, 1] bcast_S1x1_S50000x1_0_1 (broadcastInDim S1x1 ![1] bcast_S1_S1x1_1 b))) shapeCasts_S50000x1_S50000

end Cert.KernelIdeal.Graph

end
-- ==== Proof.Dense.lean ====
/-
  What each kernel body stores, read at one entry of its block of rows.

  Both bodies end in one matrix product into a zero accumulator, stored whole. On the extended reals
  a change of float format is the identity, so the product's operands are the loaded blocks
  themselves (for the second body: the rectified, biased block), and an entry (p, q) of the stored
  block is the plain sum over the 64 contracted channels k of left[p, k] · right[k, q]. The contraction
  index of the product's dimension record is a one-axis index; it is re-indexed by `Fin 64`.
-/
import proofs.«118950_j3573412790951_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx
open Cert.KernelIdeal.Facts₀ Cert.KernelIdeal.Facts

/-- Left operand index of the dotA product, axis 0: the output's row. -/
theorem dotA_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Left operand index, axis 1: the contracted coordinate. -/
theorem dotA_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- Right operand index, axis 0: the contracted coordinate. -/
theorem dotA_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- Right operand index, axis 1: the output's column. -/
theorem dotA_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Left operand index of the dotB product, axis 0: the output's row. -/
theorem dotB_lhs0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- Left operand index, axis 1: the contracted coordinate. -/
theorem dotB_lhs1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
/-- Right operand index, axis 0: the contracted coordinate. -/
theorem dotB_rhs0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
/-- Right operand index, axis 1: the output's column. -/
theorem dotB_rhs1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The first body's stored block at (p, q): Σ_k x[p, k] · w[k, q] over the loaded rows `x` and the weights `w`. -/
theorem pay0_apply (x0 : FVec Ideal S5000x64 .f32) (x1 : FVec Ideal S64x64 .f32) (p : Fin 5000) (q : Fin 64) :
    k0_pay1 (F := Ideal) x0 x1 (ix2 p q) = ∑ k : Fin 64, x0 (ix2 p k) * x1 (ix2 k q) := by
  unfold k0_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dotA_lhs0 _ _
    | ⟨1, _⟩ => exact (dotA_lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dotA_rhs0 _ _).trans hk
    | ⟨1, _⟩ => exact dotA_rhs1 _ _)
  show x0 (dot_S5000x64_S64x64_S5000x64_1_0_0_1_n_n.lhsIdx (ix2 p q) ((contrEquiv1 dot_S5000x64_S64x64_S5000x64_1_0_0_1_n_n 64 rfl rfl).symm k))
      * x1 (dot_S5000x64_S64x64_S5000x64_1_0_0_1_n_n.rhsIdx (ix2 p q) ((contrEquiv1 dot_S5000x64_S64x64_S5000x64_1_0_0_1_n_n 64 rfl rfl).symm k)) = _
  rw [el, er]

/-- The second body's stored block at (p, q): Σ_k max (a[p, k] + b[k], 0) · w[k, q] over the loaded rows `a`, the
    bias `b` (cast to one row and broadcast over the rows) and the weights `w`. -/
theorem pay1_apply (x0 : FVec Ideal S5000x64 .f32) (x1 : FVec Ideal S64 .f32) (x2 : FVec Ideal S64x1 .f32) (p : Fin 5000) (q : Fin 1) :
    k1_pay1 (F := Ideal) x0 x1 x2 (ix2 p q) = ∑ k : Fin 64, max (x0 (ix2 p k) + x1 (ix1 k)) 0 * x2 (ix2 k q) := by
  unfold k1_pay1
  refine (Ideal.matmul_constant_zero_apply dot_S5000x64_S64x1_S5000x1_1_0_0_1_n_n none _ _ (ix2 p q)).trans ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact dotB_lhs0 _ _
    | ⟨1, _⟩ => exact (dotB_lhs1 _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (dotB_rhs0 _ _).trans hk
    | ⟨1, _⟩ => exact dotB_rhs1 _ _)
  rw [el, er]
  show max (shapeCast S5000x64 x0 Facts₀.shapeCasts_S5000x64_S5000x64 (ix2 p k)
        + broadcastTo S5000x64 (shapeCast S1x64 x1 Facts₀.shapeCasts_S64_S1x64) Facts₀.broadcasts_S1x64_S5000x64 (ix2 p k))
      (Ideal.ofBits .f32 0x00000000#32) * x2 (ix2 k q) = _
  rw [shapeCast_self, broadcastTo_1b_ab_apply, shapeCast_a_1a_apply, Ideal.ofBits_zero_f32]

end Cert.KernelIdeal.Dense

end
-- ==== Proof.Spec.lean ====
/-
  The mathematics both programs compute, stated once over plain arrays of extended reals.

  A graph convolution layer here is a dense product followed by a normalised neighbourhood sum. The
  neighbourhood sum (gather rows by source node, scale by the edge weight, add into the destination
  node) is the same sequence of host operations in both programs, so it never has to be opened: only
  the dense parts differ in how they are computed. They are

    * `lin1 x w`   — the matrix product  (x · w)[n, j] = Σ_k x[n, k] · w[k, j]  of the node features with
                     the first layer's weights (50000 × 64 by 64 × 64);
    * `hid a b`    — the hidden activation  max (a[n, j] + b[j], 0): bias, then the rectifier;
    * `lin2 h w`   — the matrix product  (h · w)[n, 0] = Σ_k h[n, k] · w[k, 0]  with the second layer's
                     weights (50000 × 64 by 64 × 1).

  On the extended reals these are finite sums and a maximum; no law that needs finiteness is used
  anywhere: both programs form exactly these sums, the tiled one block of rows at a time.
-/
import Idealize.ShloMosaic.PureOps.Ideal
import Idealize.ShloMosaic.Lib.ValueIdx

noncomputable section

namespace Cert.GcnSpec

open Idealize.ShloMosaic Idealize.ShloMosaic.ValueIdx

/-- Node features and hidden activations: 50000 nodes by 64 channels. -/
abbrev NodesByChan : Shape := ⟨2, ![50000, 64]⟩
/-- The first layer's weights. -/
abbrev ChanByChan : Shape := ⟨2, ![64, 64]⟩
/-- The second layer's weights: one output channel. -/
abbrev ChanByOne : Shape := ⟨2, ![64, 1]⟩
/-- The second layer's dense output: one value per node, kept as a column. -/
abbrev NodesByOne : Shape := ⟨2, ![50000, 1]⟩
/-- A bias per channel. -/
abbrev Chan : Shape := ⟨1, ![64]⟩

/-- The first dense product: entry (n, j) is the sum over the 64 input channels k of x[n, k] · w[k, j]. -/
def lin1 (x : NodesByChan.Idx → EReal) (w : ChanByChan.Idx → EReal) : NodesByChan.Idx → EReal :=
  fun i => ∑ k : Fin 64, x (ix2 (n0 := 50000) (n1 := 64) ⟨(i 0).val, (i 0).isLt⟩ k)
    * w (ix2 (n0 := 64) (n1 := 64) k ⟨(i 1).val, (i 1).isLt⟩)

/-- The hidden activation: add the channel's bias, then clamp below at zero. -/
def hid (a : NodesByChan.Idx → EReal) (b : Chan.Idx → EReal) : NodesByChan.Idx → EReal :=
  fun i => max (a i + b (ix1 (n := 64) ⟨(i 1).val, (i 1).isLt⟩)) 0

/-- The second dense product: entry (n, 0) is the sum over the 64 hidden channels k of h[n, k] · w[k, 0]. -/
def lin2 (h : NodesByChan.Idx → EReal) (w : ChanByOne.Idx → EReal) : NodesByOne.Idx → EReal :=
  fun i => ∑ k : Fin 64, h (ix2 (n0 := 50000) (n1 := 64) ⟨(i 0).val, (i 0).isLt⟩ k)
    * w (ix2 (n0 := 64) (n1 := 1) k ⟨(i 1).val, (i 1).isLt⟩)

end Cert.GcnSpec

end
-- ==== Proof.KBlocks.lean ====
/-
  From blocks of rows to whole arrays: what each of the two tiled products leaves in its output array.

  Each product runs on a grid of ten points; point t works on rows 5000·t … 5000·t + 4999. Its input
  block of rows is that slice of the input table, the small operands (weights, bias) are fetched
  whole, and it writes back that slice of the output. An entry (r, j) of the output therefore comes
  from point r / 5000, where it is the sum over the 64 channels that the body forms from row r of
  the input: exactly entry (r, j) of the whole product. The ten blocks tile the array, so after the
  last point the array IS the whole product.
-/
import proofs.«118950_j3573412790951_1_alg».proof.Proof.Gen.KernelIdeal.Frame
import proofs.«118950_j3573412790951_1_alg».proof.Proof.Dense
import proofs.«118950_j3573412790951_1_alg».proof.Proof.Spec
import Idealize.ShloMosaic.Lib.Pipeline.Value

set_option maxRecDepth 16384

noncomputable section

namespace Cert.KernelIdeal.Blocks

open Cert.KernelIdeal Cert.KernelIdeal.Gen Cert.KernelIdeal.Dense Cert.GcnSpec
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a <;> rfl

/-! ## One entry of a block, over plain arrays -/

/-- Point `T` of the first product: if the loaded rows are rows 5000·T … of `X` and the loaded weights are `W`,
    the stored block at `y` is entry `i` of the whole product, `i` being `y` moved down by 5000·T rows. -/
theorem block0_entry (X : NodesByChan.Idx → EReal) (W : ChanByChan.Idx → EReal)
    (x0 : FVec Ideal S5000x64 .f32) (x1 : FVec Ideal S64x64 .f32) (T : Fin 10) (y : S5000x64.Idx) (i : NodesByChan.Idx)
    (h0 : ∀ (p : Fin 5000) (k : Fin 64), x0 (ix2 p k) = X (ix2 (n0 := 50000) (n1 := 64) ⟨T.val * 5000 + p.val, by have := T.isLt; have := p.isLt; omega⟩ k))
    (h1 : ∀ (k : Fin 64) (q : Fin 64), x1 (ix2 k q) = W (ix2 k q))
    (hi0 : (i 0).val = T.val * 5000 + (y 0).val) (hi1 : (i 1).val = (y 1).val) :
    k0_pay1 (F := Ideal) x0 x1 y = lin1 X W i := by
  obtain ⟨p, q, rfl⟩ : ∃ (p : Fin 5000) (q : Fin 64), y = ix2 p q := ⟨y 0, y 1, eq_ix2 y⟩
  rw [pay0_apply]
  unfold lin1
  have ei : (⟨(i 0).val, (i 0).isLt⟩ : Fin 50000) = ⟨T.val * 5000 + p.val, by have := T.isLt; have := p.isLt; omega⟩ := Fin.ext hi0
  have eq' : (⟨(i 1).val, (i 1).isLt⟩ : Fin 64) = q := Fin.ext hi1
  rw [ei, eq']
  exact Finset.sum_congr rfl fun k _ => by rw [h0, h1]

/-- Point `T` of the second product, likewise: rows 5000·T … of `A`, the whole bias `b` and the whole weights `W`. -/
theorem block1_entry (A : NodesByChan.Idx → EReal) (b : Chan.Idx → EReal) (W : ChanByOne.Idx → EReal)
    (x0 : FVec Ideal S5000x64 .f32) (x1 : FVec Ideal S64 .f32) (x2 : FVec Ideal S64x1 .f32) (T : Fin 10) (y : S5000x1.Idx) (i : NodesByOne.Idx)
    (h0 : ∀ (p : Fin 5000) (k : Fin 64), x0 (ix2 p k) = A (ix2 (n0 := 50000) (n1 := 64) ⟨T.val * 5000 + p.val, by have := T.isLt; have := p.isLt; omega⟩ k))
    (h1 : ∀ (k : Fin 64), x1 (ix1 k) = b (ix1 k))
    (h2 : ∀ (k : Fin 64) (q : Fin 1), x2 (ix2 k q) = W (ix2 k q))
    (hi0 : (i 0).val = T.val * 5000 + (y 0).val) (hi1 : (i 1).val = (y 1).val) :
    k1_pay1 (F := Ideal) x0 x1 x2 y = lin2 (hid A b) W i := by
  obtain ⟨p, q, rfl⟩ : ∃ (p : Fin 5000) (q : Fin 1), y = ix2 p q := ⟨y 0, y 1, eq_ix2 y⟩
  rw [pay1_apply]
  unfold lin2 hid
  have ei : (⟨(i 0).val, (i 0).isLt⟩ : Fin 50000) = ⟨T.val * 5000 + p.val, by have := T.isLt; have := p.isLt; omega⟩ := Fin.ext hi0
  have eq' : (⟨(i 1).val, (i 1).isLt⟩ : Fin 1) = q := Fin.ext hi1
  rw [ei, eq']
  exact Finset.sum_congr rfl fun k _ => by rw [h0, h1, h2]

/-! ## The first product's region -/

section Region0

variable (V : (c : Dev nD) → (b : Ref sig .tc) → Buf (Elt Ideal) ((c : Thread nD τ).loc b))

/-- The printed index maps over the ten points: the row blocks move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed0_eq (c : Dev nD) (t : Fin cfg0.N) :
    (dat0 (F := Ideal) V c).flushed 2 t = ((cfg0.win 2).blk t).view.read (Elt Ideal) (lin1 (V c main_arg0) (V c main_arg2)) := by
  show (cfg0.win 2).cut (grid0.coords t) ((dat0 V c).after 2 t) = _
  rw [after0_2]
  unfold out0_2
  rw [View.canon_unit_zero zero2]
  simp only [View.ld_unit_zero (S := S5000x64) zero2, View.ld_unit_zero (S := S64x64) zero2]
  obtain ⟨e0, e1, e2, e3, e4, e5⟩ := idx0 t
  have ht : t.val < 10 := by have := t.isLt; have hN : cfg0.N = 10 := N_0; omega
  funext j
  refine block0_entry (V c main_arg0) (V c main_arg2) (iblk0 V c 0 t) (iblk0 V c 1 t) ⟨t.val, ht⟩ j (((cfg0.win 2).blk t).view.emb j) ?_ ?_ ?_ ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro k q
    show V c main_arg2 (((cfg0.win 1).blk t).view.emb (ix2 k q)) = V c main_arg2 _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · show win0_2.index t (0 : Fin 2) * 5000 + 1 * (j 0).val = t.val * 5000 + (j 0).val; omega
  · show win0_2.index t (1 : Fin 2) * 64 + 1 * (j 1).val = (j 1).val; omega

/-- An index of the output array is in point `t`'s block iff each coordinate is in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r of the output lies in the block of point r / 5000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have hlt : (i 0).val / 5000 < cfg0.N := by omega
  obtain ⟨-, -, -, -, e4, e5⟩ := idx0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 64 ≤ (i 1).val ∧ (i 1).val < win0_2.index ⟨(i 0).val / 5000, hlt⟩ (1 : Fin 2) * 64 + 64; omega

/-- After the last point the first region's output array is the whole product of the arrays it found. -/
theorem final0 (c : Dev nD) : (dat0 (F := Ideal) V c).arrAt 2 cfg0.N = lin1 (V c main_arg0) (V c main_arg2) :=
  (dat0 (F := Ideal) V c).arrAt_eq_of_cover 2 (lin1 (V c main_arg0) (V c main_arg2)) (fun t _ => flushed0_eq V c t) cover0

end Region0

/-! ## The second product's region -/

section Region1

variable (V : (c : Dev nD) → (b : Ref sig .tc) → Buf (Elt Ideal) ((c : Thread nD τ).loc b))

/-- The printed index maps over the ten points: the row blocks move with the point, bias and weights stay. -/
theorem idx1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the second whole product, of the rectified biased table. -/
theorem flushed1_eq (c : Dev nD) (t : Fin cfg1.N) :
    (dat1 (F := Ideal) V c).flushed 3 t = ((cfg1.win 3).blk t).view.read (Elt Ideal) (lin2 (hid (V c main_v45) (V c main_arg3)) (V c main_arg4)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S64) zero1, View.ld_unit_zero (S := S64x1) zero2]
  obtain ⟨e0, e1, e2, e3, e4, e5, e6⟩ := idx1 t
  have ht : t.val < 10 := by have := t.isLt; have hN : cfg1.N = 10 := N_1; omega
  funext j
  refine block1_entry (V c main_v45) (V c main_arg3) (V c main_arg4) (iblk1 V c 0 t) (iblk1 V c 1 t) (iblk1 V c 2 t) ⟨t.val, ht⟩ j (((cfg1.win 3).blk t).view.emb j) ?_ ?_ ?_ ?_ ?_
  · intro p k
    show V c main_v45 (((cfg1.win 0).blk t).view.emb (ix2 p k)) = V c main_v45 _
    refine congrArg (V c main_v45) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_arg3 (((cfg1.win 1).blk t).view.emb (ix1 k)) = V c main_arg3 _
    refine congrArg (V c main_arg3) (funext fun a => Fin.ext ?_)
    match a with
    | ⟨0, _⟩ => show win1_1.index t (0 : Fin 1) * 64 + 1 * k.val = k.val; omega
  · intro k q
    show V c main_arg4 (((cfg1.win 2).blk t).view.emb (ix2 k q)) = V c main_arg4 _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 1 + 1 * q.val = q.val; omega
  · show win1_3.index t (0 : Fin 2) * 5000 + 1 * (j 0).val = t.val * 5000 + (j 0).val; omega
  · show win1_3.index t (1 : Fin 2) * 1 + 1 * (j 1).val = (j 1).val; omega

/-- An index of the output array is in point `t`'s block iff each coordinate is in the block's range. -/
theorem mem_blk1 (t : Fin cfg1.N) (i : S50000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v46).slice (win1_3.rect t)).set ↔ _
  rw [View.set_slice_whole, Rect.mem_set_unit]
  exact Iff.rfl

/-- Row r of the output lies in the block of point r / 5000. -/
theorem cover1 (i : S50000x1.Idx) : ∃ t : Fin cfg1.N, (cfg1.win 3).flush t = true ∧ i ∈ ((cfg1.win 3).blk t).view.set := by
  have hi0 : (i 0).val < 50000 := (i 0).isLt
  have hi1 : (i 1).val < 1 := (i 1).isLt
  have hN : cfg1.N = 10 := N_1
  have hlt : (i 0).val / 5000 < cfg1.N := by omega
  obtain ⟨-, -, -, -, -, e5, e6⟩ := idx1 ⟨(i 0).val / 5000, hlt⟩
  have e5' : win1_3.index ⟨(i 0).val / 5000, hlt⟩ (0 : Fin 2) = (i 0).val / 5000 := e5
  refine ⟨⟨(i 0).val / 5000, hlt⟩, flush1_3 _, ?_⟩
  rw [mem_blk1]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 1 ≤ (i 1).val ∧ (i 1).val < win1_3.index ⟨(i 0).val / 5000, hlt⟩ (1 : Fin 2) * 1 + 1; omega

/-- After the last point the second region's output array is the whole product of the rectified biased table. -/
theorem final1 (c : Dev nD) : (dat1 (F := Ideal) V c).arrAt 3 cfg1.N = lin2 (hid (V c main_v45) (V c main_arg3)) (V c main_arg4) :=
  (dat1 (F := Ideal) V c).arrAt_eq_of_cover 3 (lin2 (hid (V c main_v45) (V c main_arg3)) (V c main_arg4)) (fun t _ => flushed1_eq V c t) cover1

end Region1

end Cert.KernelIdeal.Blocks

end
-- ==== Proof.KRun.lean ====
/-
  The idealized kernel program's run with its result named.

  The program is seven segments: three stretches of host operations, the first matrix product's
  region, a stretch of host operations, the second matrix product's region, and a last stretch of
  host operations. Every weakly fair execution terminates without a fault, and in the final memory
  every unscoped buffer holds the contents that the fold of the segments leaves there: the host
  stretches apply their operations in order, and a region replaces its output array by what its
  grid points wrote back. Read at the result buffer this gives the result as the last fold's value
  there; read at an argument buffer it gives the argument as launched.
-/
import proofs.«118950_j3573412790951_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the value
    the last host stretch's fold has there, and the six argument arrays end as launched. -/
theorem run : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.KFold.lean ====
/-
  The kernel program's result, read back through its seven segments.

  Every buffer's final contents is a fold over the segments; a buffer that a segment does not write
  passes through it unchanged. Reading the result buffer back:

    * the last host stretch makes it `output e g b₂` of the second region's output array `g`;
    * the second region's output array is the whole product `lin2 (hid a b₁) w₂` of the table `a` it found;
    * that table is what the middle host stretch made: `aggregate64 e l` of the first region's output `l`;
    * the first region's output array is the whole product `lin1 x w₁`;
    * and the node numbers and edge weights every stretch uses were computed once, before the first
      region, from the edge list alone, and reach the later stretches unchanged.
-/
import proofs.«118950_j3573412790951_1_alg».proof.Proof.Gen.KernelIdeal.Frame
import proofs.«118950_j3573412790951_1_alg».proof.Proof.Graph
import proofs.«118950_j3573412790951_1_alg».proof.Proof.KBlocks
import proofs.«118950_j3573412790951_1_alg».proof.Proof.KRun
import Idealize.ShloMosaic.Lib.StableHlo.Run

set_option maxRecDepth 16384

noncomputable section

namespace Cert.KernelIdeal.Fold

open Cert.KernelIdeal Cert.KernelIdeal.Gen Cert.KernelIdeal.Graph Cert.KernelIdeal.Blocks Cert.GcnSpec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: everything that depends on the edge list alone, and the arguments

The first host stretch computes the node numbers and the degrees; the outlined selection after it makes the
per-node factor; the stretch after that gathers the factors along the edges. Each stretch is read from the contents
the previous one left, named by what they are. -/

/-! ### After the first stretch -/

set_option maxHeartbeats 4000000 in
theorem w1_src : W1 m ρ c (Proc.devRef .tc main_v3) = srcNodes (m ((c.tc : Thread nD τ).loc main_arg1)) := by
  dsimp only [W1, W0, hostOps0]
  after_results_simp <;> rfl

set_option maxHeartbeats 4000000 in
theorem w1_dst : W1 m ρ c (Proc.devRef .tc main_v6) = dstNodes (m ((c.tc : Thread nD τ).loc main_arg1)) := by
  dsimp only [W1, W0, hostOps0]
  after_results_simp <;> rfl

set_option maxHeartbeats 4000000 in
/-- Which nodes have a positive degree. -/
theorem w1_pos : W1 m ρ c (Proc.devRef .tc main_v12)
    = cmpf (F := Ideal) .ogt (degree (m ((c.tc : Thread nD τ).loc main_arg1))) (broadcastInDim S50000 ![] Facts₀.bcast_S_S50000 (constant S_ .f32 0x00000000#32)) := by
  dsimp only [W1, W0, hostOps0]
  after_results_simp <;> rfl

set_option maxHeartbeats 4000000 in
/-- The reciprocal square root of the degree clamped below. -/
theorem w1_rsq : W1 m ρ c (Proc.devRef .tc main_v15)
    = Host.rsqrt (maximumf (degree (m ((c.tc : Thread nD τ).loc main_arg1))) (broadcastInDim S50000 ![] Facts₀.bcast_S_S50000 (constant (F := Ideal) S_ .f32 0x2B8CBCCC#32))) := by
  dsimp only [W1, W0, hostOps0]
  after_results_simp <;> rfl

set_option maxHeartbeats 4000000 in
theorem w1_zero : W1 m ρ c (Proc.devRef .tc main_cst_3) = constant (F := Ideal) S_ .f32 0x00000000#32 := by
  dsimp only [W1, W0, hostOps0]
  after_results_simp <;> rfl

set_option maxHeartbeats 4000000 in
theorem w1_x : W1 m ρ c (Proc.devRef .tc main_arg0) = (m ((c.tc : Thread nD τ).loc main_arg0)) := by
  dsimp only [W1, W0, hostOps0]
  after_results_simp <;> rfl

set_option maxHeartbeats 4000000 in
theorem w1_w1 : W1 m ρ c (Proc.devRef .tc main_arg2) = (m ((c.tc : Thread nD τ).loc main_arg2)) := by
  dsimp only [W1, W0, hostOps0]
  after_results_simp <;> rfl

set_option maxHeartbeats 4000000 in
theorem w1_b1 : W1 m ρ c (Proc.devRef .tc main_arg3) = (m ((c.tc : Thread nD τ).loc main_arg3)) := by
  dsimp only [W1, W0, hostOps0]
  after_results_simp <;> rfl

set_option maxHeartbeats 4000000 in
theorem w1_w2 : W1 m ρ c (Proc.devRef .tc main_arg4) = (m ((c.tc : Thread nD τ).loc main_arg4)) := by
  dsimp only [W1, W0, hostOps0]
  after_results_simp <;> rfl

set_option maxHeartbeats 4000000 in
theorem w1_b2 : W1 m ρ c (Proc.devRef .tc main_arg5) = (m ((c.tc : Thread nD τ).loc main_arg5)) := by
  dsimp only [W1, W0, hostOps0]
  after_results_simp <;> rfl

/-! ### After the outlined selection -/

set_option maxHeartbeats 4000000 in
/-- The outlined selection, over any contents: where the flag `p` is set take `a`, elsewhere the scalar `z` broadcast. -/
theorem where_stage (V : Valuation τ sig (Elt Ideal)) (p : (⟨S50000, .i1⟩ : BufTy).Contents (Elt Ideal))
    (a : (⟨S50000, .f32⟩ : BufTy).Contents (Elt Ideal)) (z : (⟨S_, .f32⟩ : BufTy).Contents (Elt Ideal))
    (h1 : V (Proc.devRef .tc main_v12) = p) (h2 : V (Proc.devRef .tc main_v15) = a) (h3 : V (Proc.devRef .tc main_cst_3) = z) :
    StableHlo.after hostOps0_1 V (Proc.devRef .tc main_v16) = select p a (broadcastInDim S50000 ![] Facts₀.bcast_S_S50000 z) := by
  dsimp only [hostOps0_1]
  after_results_simp
  rw [h1, h2, h3]
  rfl

/-- The per-node factor: the reciprocal square root where the degree is positive, zero elsewhere. -/
theorem w2_fac : W2 m ρ c (Proc.devRef .tc main_v16) = invSqrtDeg (m ((c.tc : Thread nD τ).loc main_arg1)) :=
  (where_stage (W1 m ρ c) _ _ _ (w1_pos m ρ c) (w1_rsq m ρ c) (w1_zero m ρ c)).trans (by unfold invSqrtDeg; rfl)

set_option maxHeartbeats 4000000 in
theorem w2_src : W2 m ρ c (Proc.devRef .tc main_v3) = srcNodes (m ((c.tc : Thread nD τ).loc main_arg1)) := by
  have h := w1_src m ρ c
  dsimp only [W2, hostOps0_1]
  generalize W1 m ρ c = V at h ⊢
  after_results_simp
  exact h

set_option maxHeartbeats 4000000 in
theorem w2_dst : W2 m ρ c (Proc.devRef .tc main_v6) = dstNodes (m ((c.tc : Thread nD τ).loc main_arg1)) := by
  have h := w1_dst m ρ c
  dsimp only [W2, hostOps0_1]
  generalize W1 m ρ c = V at h ⊢
  after_results_simp
  exact h

set_option maxHeartbeats 4000000 in
theorem w2_x : W2 m ρ c (Proc.devRef .tc main_arg0) = (m ((c.tc : Thread nD τ).loc main_arg0)) := by
  have h := w1_x m ρ c
  dsimp only [W2, hostOps0_1]
  generalize W1 m ρ c = V at h ⊢
  after_results_simp
  exact h

set_option maxHeartbeats 4000000 in
theorem w2_w1 : W2 m ρ c (Proc.devRef .tc main_arg2) = (m ((c.tc : Thread nD τ).loc main_arg2)) := by
  have h := w1_w1 m ρ c
  dsimp only [W2, hostOps0_1]
  generalize W1 m ρ c = V at h ⊢
  after_results_simp
  exact h

set_option maxHeartbeats 4000000 in
theorem w2_b1 : W2 m ρ c (Proc.devRef .tc main_arg3) = (m ((c.tc : Thread nD τ).loc main_arg3)) := by
  have h := w1_b1 m ρ c
  dsimp only [W2, hostOps0_1]
  generalize W1 m ρ c = V at h ⊢
  after_results_simp
  exact h

set_option maxHeartbeats 4000000 in
theorem w2_w2 : W2 m ρ c (Proc.devRef .tc main_arg4) = (m ((c.tc : Thread nD τ).loc main_arg4)) := by
  have h := w1_w2 m ρ c
  dsimp only [W2, hostOps0_1]
  generalize W1 m ρ c = V at h ⊢
  after_results_simp
  exact h

set_option maxHeartbeats 4000000 in
theorem w2_b2 : W2 m ρ c (Proc.devRef .tc main_arg5) = (m ((c.tc : Thread nD τ).loc main_arg5)) := by
  have h := w1_b2 m ρ c
  dsimp only [W2, hostOps0_1]
  generalize W1 m ρ c = V at h ⊢
  after_results_simp
  exact h

/-! ### After the third stretch: the first region's entry -/

set_option maxHeartbeats 4000000 in
/-- The weight of every edge. -/
theorem w3_wt : W3 m ρ c (Proc.devRef .tc main_v31) = edgeWeight (m ((c.tc : Thread nD τ).loc main_arg1)) := by
  have h1 := w2_fac m ρ c
  have h2 := w2_src m ρ c
  have h3 := w2_dst m ρ c
  dsimp only [W3, hostOps0_2]
  generalize W2 m ρ c = V at h1 h2 h3 ⊢
  after_results_simp
  rw [h1, h2, h3]
  rfl

set_option maxHeartbeats 4000000 in
theorem w3_src : W3 m ρ c (Proc.devRef .tc main_v3) = srcNodes (m ((c.tc : Thread nD τ).loc main_arg1)) := by
  have h := w2_src m ρ c
  dsimp only [W3, hostOps0_2]
  generalize W2 m ρ c = V at h ⊢
  after_results_simp
  exact h

set_option maxHeartbeats 4000000 in
theorem w3_dst : W3 m ρ c (Proc.devRef .tc main_v6) = dstNodes (m ((c.tc : Thread nD τ).loc main_arg1)) := by
  have h := w2_dst m ρ c
  dsimp only [W3, hostOps0_2]
  generalize W2 m ρ c = V at h ⊢
  after_results_simp
  exact h

set_option maxHeartbeats 4000000 in
theorem w3_x : W3 m ρ c (Proc.devRef .tc main_arg0) = (m ((c.tc : Thread nD τ).loc main_arg0)) := by
  have h := w2_x m ρ c
  dsimp only [W3, hostOps0_2]
  generalize W2 m ρ c = V at h ⊢
  after_results_simp
  exact h

set_option maxHeartbeats 4000000 in
theorem w3_w1 : W3 m ρ c (Proc.devRef .tc main_arg2) = (m ((c.tc : Thread nD τ).loc main_arg2)) := by
  have h := w2_w1 m ρ c
  dsimp only [W3, hostOps0_2]
  generalize W2 m ρ c = V at h ⊢
  after_results_simp
  exact h

set_option maxHeartbeats 4000000 in
theorem w3_b1 : W3 m ρ c (Proc.devRef .tc main_arg3) = (m ((c.tc : Thread nD τ).loc main_arg3)) := by
  have h := w2_b1 m ρ c
  dsimp only [W3, hostOps0_2]
  generalize W2 m ρ c = V at h ⊢
  after_results_simp
  exact h

set_option maxHeartbeats 4000000 in
theorem w3_w2 : W3 m ρ c (Proc.devRef .tc main_arg4) = (m ((c.tc : Thread nD τ).loc main_arg4)) := by
  have h := w2_w2 m ρ c
  dsimp only [W3, hostOps0_2]
  generalize W2 m ρ c = V at h ⊢
  after_results_simp
  exact h

set_option maxHeartbeats 4000000 in
theorem w3_b2 : W3 m ρ c (Proc.devRef .tc main_arg5) = (m ((c.tc : Thread nD τ).loc main_arg5)) := by
  have h := w2_b2 m ρ c
  dsimp only [W3, hostOps0_2]
  generalize W2 m ρ c = V at h ⊢
  after_results_simp
  exact h

/-! ## The first region's exit -/

/-- The first region leaves the whole first product in its output array. -/
theorem w4_lin : W4 m ρ c (Proc.devRef .tc main_v32) = lin1 (m ((c.tc : Thread nD τ).loc main_arg0)) (m ((c.tc : Thread nD τ).loc main_arg2)) := by
  refine (W4_arr m ρ c 2).trans ((final0 (V3 m ρ) c).trans ?_)
  dsimp only [V3]
  rw [w3_x m ρ c, w3_w1 m ρ c]

theorem w4_src : W4 m ρ c (Proc.devRef .tc main_v3) = srcNodes (m ((c.tc : Thread nD τ).loc main_arg1)) :=
  (W4_of_ne m ρ c main_v3 (by decide)).trans (w3_src m ρ c)

theorem w4_dst : W4 m ρ c (Proc.devRef .tc main_v6) = dstNodes (m ((c.tc : Thread nD τ).loc main_arg1)) :=
  (W4_of_ne m ρ c main_v6 (by decide)).trans (w3_dst m ρ c)

theorem w4_wt : W4 m ρ c (Proc.devRef .tc main_v31) = edgeWeight (m ((c.tc : Thread nD τ).loc main_arg1)) :=
  (W4_of_ne m ρ c main_v31 (by decide)).trans (w3_wt m ρ c)

theorem w4_b1 : W4 m ρ c (Proc.devRef .tc main_arg3) = (m ((c.tc : Thread nD τ).loc main_arg3)) :=
  (W4_of_ne m ρ c main_arg3 (by decide)).trans (w3_b1 m ρ c)

theorem w4_w2 : W4 m ρ c (Proc.devRef .tc main_arg4) = (m ((c.tc : Thread nD τ).loc main_arg4)) :=
  (W4_of_ne m ρ c main_arg4 (by decide)).trans (w3_w2 m ρ c)

theorem w4_b2 : W4 m ρ c (Proc.devRef .tc main_arg5) = (m ((c.tc : Thread nD τ).loc main_arg5)) :=
  (W4_of_ne m ρ c main_arg5 (by decide)).trans (w3_b2 m ρ c)

/-! ## After the middle host stretch -/

set_option maxHeartbeats 4000000 in
/-- The middle stretch aggregates the first product over the graph. -/
theorem w5_agg : W5 m ρ c (Proc.devRef .tc main_v45) = aggregate64 (m ((c.tc : Thread nD τ).loc main_arg1)) (lin1 (m ((c.tc : Thread nD τ).loc main_arg0)) (m ((c.tc : Thread nD τ).loc main_arg2))) := by
  dsimp only [W5, hostOps1]
  after_results_simp
  rw [w4_lin m ρ c, w4_src m ρ c, w4_dst m ρ c, w4_wt m ρ c]
  rfl

set_option maxHeartbeats 4000000 in
theorem w5_src : W5 m ρ c (Proc.devRef .tc main_v3) = srcNodes (m ((c.tc : Thread nD τ).loc main_arg1)) := by
  dsimp only [W5, hostOps1]
  after_results_simp
  exact w4_src m ρ c

set_option maxHeartbeats 4000000 in
theorem w5_dst : W5 m ρ c (Proc.devRef .tc main_v6) = dstNodes (m ((c.tc : Thread nD τ).loc main_arg1)) := by
  dsimp only [W5, hostOps1]
  after_results_simp
  exact w4_dst m ρ c

set_option maxHeartbeats 4000000 in
theorem w5_wt : W5 m ρ c (Proc.devRef .tc main_v31) = edgeWeight (m ((c.tc : Thread nD τ).loc main_arg1)) := by
  dsimp only [W5, hostOps1]
  after_results_simp
  exact w4_wt m ρ c

set_option maxHeartbeats 4000000 in
theorem w5_b1 : W5 m ρ c (Proc.devRef .tc main_arg3) = (m ((c.tc : Thread nD τ).loc main_arg3)) := by
  dsimp only [W5, hostOps1]
  after_results_simp
  exact w4_b1 m ρ c

set_option maxHeartbeats 4000000 in
theorem w5_w2 : W5 m ρ c (Proc.devRef .tc main_arg4) = (m ((c.tc : Thread nD τ).loc main_arg4)) := by
  dsimp only [W5, hostOps1]
  after_results_simp
  exact w4_w2 m ρ c

set_option maxHeartbeats 4000000 in
theorem w5_b2 : W5 m ρ c (Proc.devRef .tc main_arg5) = (m ((c.tc : Thread nD τ).loc main_arg5)) := by
  dsimp only [W5, hostOps1]
  after_results_simp
  exact w4_b2 m ρ c

/-! ## The second region's exit -/

/-- The second region leaves the whole second product, of the rectified biased aggregate, in its output array. -/
theorem w6_lin : W6 m ρ c (Proc.devRef .tc main_v46) = lin2 (hid (aggregate64 (m ((c.tc : Thread nD τ).loc main_arg1)) (lin1 (m ((c.tc : Thread nD τ).loc main_arg0)) (m ((c.tc : Thread nD τ).loc main_arg2)))) (m ((c.tc : Thread nD τ).loc main_arg3))) (m ((c.tc : Thread nD τ).loc main_arg4)) := by
  refine (W6_arr m ρ c 3).trans ((final1 (V5 m ρ) c).trans ?_)
  dsimp only [V5]
  rw [w5_agg m ρ c, w5_b1 m ρ c, w5_w2 m ρ c]

theorem w6_src : W6 m ρ c (Proc.devRef .tc main_v3) = srcNodes (m ((c.tc : Thread nD τ).loc main_arg1)) :=
  (W6_of_ne m ρ c main_v3 (by decide)).trans (w5_src m ρ c)

theorem w6_dst : W6 m ρ c (Proc.devRef .tc main_v6) = dstNodes (m ((c.tc : Thread nD τ).loc main_arg1)) :=
  (W6_of_ne m ρ c main_v6 (by decide)).trans (w5_dst m ρ c)

theorem w6_wt : W6 m ρ c (Proc.devRef .tc main_v31) = edgeWeight (m ((c.tc : Thread nD τ).loc main_arg1)) :=
  (W6_of_ne m ρ c main_v31 (by decide)).trans (w5_wt m ρ c)

theorem w6_b2 : W6 m ρ c (Proc.devRef .tc main_arg5) = (m ((c.tc : Thread nD τ).loc main_arg5)) :=
  (W6_of_ne m ρ c main_arg5 (by decide)).trans (w5_b2 m ρ c)

/-! ## The result -/

set_option maxHeartbeats 4000000 in
/-- The last stretch aggregates the second product, adds the bias and drops the unit axis. -/
theorem w7_out : W7 m ρ c (Proc.devRef .tc main_v62) = output (m ((c.tc : Thread nD τ).loc main_arg1)) (lin2 (hid (aggregate64 (m ((c.tc : Thread nD τ).loc main_arg1)) (lin1 (m ((c.tc : Thread nD τ).loc main_arg0)) (m ((c.tc : Thread nD τ).loc main_arg2)))) (m ((c.tc : Thread nD τ).loc main_arg3))) (m ((c.tc : Thread nD τ).loc main_arg4))) (m ((c.tc : Thread nD τ).loc main_arg5)) := by
  dsimp only [W7, hostOps2]
  after_results_simp
  rw [w6_lin m ρ c, w6_src m ρ c, w6_dst m ρ c, w6_wt m ρ c, w6_b2 m ρ c]
  rfl

/-- The idealized kernel program's run: it terminates, the result buffer ends at the two-layer graph
    convolution of the arguments, and the arguments end as launched. -/
theorem run : θ_run defs (onTc (τ := τ) (main (F := Ideal))) ⟨m, fun _ => 0, ρ⟩ (fun r => ∀ c : Dev nD,
      r.2.mem ((c.tc : Thread nD τ).loc main_v62) = output (m ((c.tc : Thread nD τ).loc main_arg1)) (lin2 (hid (aggregate64 (m ((c.tc : Thread nD τ).loc main_arg1)) (lin1 (m ((c.tc : Thread nD τ).loc main_arg0)) (m ((c.tc : Thread nD τ).loc main_arg2)))) (m ((c.tc : Thread nD τ).loc main_arg3))) (m ((c.tc : Thread nD τ).loc main_arg4))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (w7_out m ρ c), (h c).2⟩) (Cert.KernelIdeal.Named.run m ρ)

end Cert.KernelIdeal.Fold

end
-- ==== Proof.RefValue.lean ====
/-
  The reference program's result in the same words as the kernel program's.

  The reference's run ends with its result at one long term of the arguments. Read from the outside
  in, that term is the last layer `output e g b₂` of the dense product `g` of the hidden activation
  with the second weights; the hidden activation is the rectified, biased neighbourhood sum
  `aggregate64 e l` of the dense product `l` of the features with the first weights. The graph
  functions are the very operations of the term (the reference computes the edge weights a second
  time for the second layer: the same function of the edge list). What remains is that on the
  extended reals the host's contraction is the plain sum over the 64 channels, and that adding a
  broadcast bias and taking the maximum with a broadcast zero is the hidden activation entry by entry.
-/
import proofs.«118950_j3573412790951_1_alg».proof.Proof.RefRun
import proofs.«118950_j3573412790951_1_alg».proof.Proof.Graph
import proofs.«118950_j3573412790951_1_alg».proof.Proof.Spec
import proofs.«118950_j3573412790951_1_alg».proof.Proof.Gen.KernelIdeal
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Idealize.ShloMosaic.TcCoe Idealize.SL.Sem Cert.GcnSpec
open Cert.KernelIdeal.Graph

/-- Left operand index of the dotC product, axis 0: the output's row. -/
theorem dotC_lhs0 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
/-- Left operand index, axis 1: the contracted coordinate. -/
theorem dotC_lhs1 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
/-- Right operand index, axis 0: the contracted coordinate. -/
theorem dotC_rhs0 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
/-- Right operand index, axis 1: the output's column. -/
theorem dotC_rhs1 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- Left operand index of the dotD product, axis 0: the output's row. -/
theorem dotD_lhs0 (i : Cert.ReferenceIdeal.S50000x1.Idx) (q : Cert.ReferenceIdeal.dot_S50000x64_S64x1_S50000x1_1_0_0_1_n_n.contr.Idx) : (Cert.ReferenceIdeal.dot_S50000x64_S64x1_S50000x1_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x1_S50000x1_1_0_0_1_n_n.lhsBatch by decide), dif_pos (show (0 : Fin Cert.ReferenceIdeal.S50000x64.rank) ∈ Cert.ReferenceIdeal.dot_S50000x64_S64x1_S50000x1_1_0_0_1_n_n.lhsNonContracting by decide)]
  rfl
/-- Left operand index, axis 1: the contracted coordinate. -/
theorem dotD_lhs1 (i : Cert.ReferenceIdeal.S50000x1.Idx) (q : Cert.ReferenceIdeal.dot_S50000x64_S64x1_S50000x1_1_0_0_1_n_n.contr.Idx) : (Cert.ReferenceIdeal.dot_S50000x64_S64x1_S50000x1_1_0_0_1_n_n.lhsIdx i q 1).val = (q ⟨0, by decide⟩).val :=
  Cert.ReferenceIdeal.dot_S50000x64_S64x1_S50000x1_1_0_0_1_n_n.lhsIdx_val_of_single rfl i q
/-- Right operand index, axis 0: the contracted coordinate. -/
theorem dotD_rhs0 (i : Cert.ReferenceIdeal.S50000x1.Idx) (q : Cert.ReferenceIdeal.dot_S50000x64_S64x1_S50000x1_1_0_0_1_n_n.contr.Idx) : (Cert.ReferenceIdeal.dot_S50000x64_S64x1_S50000x1_1_0_0_1_n_n.rhsIdx i q 0).val = (q ⟨0, by decide⟩).val :=
  Cert.ReferenceIdeal.dot_S50000x64_S64x1_S50000x1_1_0_0_1_n_n.rhsIdx_val_of_single rfl i q
/-- Right operand index, axis 1: the output's column. -/
theorem dotD_rhs1 (i : Cert.ReferenceIdeal.S50000x1.Idx) (q : Cert.ReferenceIdeal.dot_S50000x64_S64x1_S50000x1_1_0_0_1_n_n.contr.Idx) : (Cert.ReferenceIdeal.dot_S50000x64_S64x1_S50000x1_1_0_0_1_n_n.rhsIdx i q 1).val = (i 1).val := by
  unfold DotDims.rhsIdx
  rw [dif_neg (show ¬(1 : Fin Cert.ReferenceIdeal.S64x1.rank) ∈ Cert.ReferenceIdeal.dot_S50000x64_S64x1_S50000x1_1_0_0_1_n_n.rhsBatch by decide), dif_pos (show (1 : Fin Cert.ReferenceIdeal.S64x1.rank) ∈ Cert.ReferenceIdeal.dot_S50000x64_S64x1_S50000x1_1_0_0_1_n_n.rhsNonContracting by decide)]
  rfl

/-- The host's first contraction is the first dense product. -/
theorem ref_lin1 (x : FVec Ideal Cert.ReferenceIdeal.S50000x64 .f32) (w : FVec Ideal Cert.ReferenceIdeal.S64x64 .f32) :
    Host.dotGeneral Cert.ReferenceIdeal.dot_S50000x64_S64x64_S50000x64_1_0_0_1_n_n none x w = lin1 x w := by
  funext i
  simp only [Host.dotGeneral]
  rw [Ideal.dotGeneral_apply, ← Equiv.sum_comp (contrEquiv1 Cert.ReferenceIdeal.dot_S50000x64_S64x64_S50000x64_1_0_0_1_n_n 64 rfl rfl).symm]
  unfold lin1
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx i ((contrEquiv1 Cert.ReferenceIdeal.dot_S50000x64_S64x64_S50000x64_1_0_0_1_n_n 64 rfl rfl).symm k) = ix2 (n0 := 50000) (n1 := 64) ⟨(i 0).val, (i 0).isLt⟩ k := funext fun a => Fin.ext (by
    match a with
    | ⟨0, _⟩ => exact dotC_lhs0 _ _
    | ⟨1, _⟩ => exact (dotC_lhs1 _ _).trans hk)
  have er : Cert.ReferenceIdeal.dot_S50000x64_S64x64_S50000x64_1_0_0_1_n_n.rhsIdx i ((contrEquiv1 Cert.ReferenceIdeal.dot_S50000x64_S64x64_S50000x64_1_0_0_1_n_n 64 rfl rfl).symm k) = ix2 (n0 := 64) (n1 := 64) k ⟨(i 1).val, (i 1).isLt⟩ := funext fun a => Fin.ext (by
    match a with
    | ⟨0, _⟩ => exact (dotC_rhs0 _ _).trans hk
    | ⟨1, _⟩ => exact dotC_rhs1 _ _)
  rw [el, er]

/-- The host's second contraction is the second dense product. -/
theorem ref_lin2 (h : FVec Ideal Cert.ReferenceIdeal.S50000x64 .f32) (w : FVec Ideal Cert.ReferenceIdeal.S64x1 .f32) :
    Host.dotGeneral Cert.ReferenceIdeal.dot_S50000x64_S64x1_S50000x1_1_0_0_1_n_n none h w = lin2 h w := by
  funext i
  simp only [Host.dotGeneral]
  rw [Ideal.dotGeneral_apply, ← Equiv.sum_comp (contrEquiv1 Cert.ReferenceIdeal.dot_S50000x64_S64x1_S50000x1_1_0_0_1_n_n 64 rfl rfl).symm]
  unfold lin2
  refine Finset.sum_congr rfl fun k _ => ?_
  have hk := contrEquiv1_symm_val Cert.ReferenceIdeal.dot_S50000x64_S64x1_S50000x1_1_0_0_1_n_n 64 rfl rfl k
  have el : Cert.ReferenceIdeal.dot_S50000x64_S64x1_S50000x1_1_0_0_1_n_n.lhsIdx i ((contrEquiv1 Cert.ReferenceIdeal.dot_S50000x64_S64x1_S50000x1_1_0_0_1_n_n 64 rfl rfl).symm k) = ix2 (n0 := 50000) (n1 := 64) ⟨(i 0).val, (i 0).isLt⟩ k := funext fun a => Fin.ext (by
    match a with
    | ⟨0, _⟩ => exact dotD_lhs0 _ _
    | ⟨1, _⟩ => exact (dotD_lhs1 _ _).trans hk)
  have er : Cert.ReferenceIdeal.dot_S50000x64_S64x1_S50000x1_1_0_0_1_n_n.rhsIdx i ((contrEquiv1 Cert.ReferenceIdeal.dot_S50000x64_S64x1_S50000x1_1_0_0_1_n_n 64 rfl rfl).symm k) = ix2 (n0 := 64) (n1 := 1) k ⟨(i 1).val, (i 1).isLt⟩ := funext fun a => Fin.ext (by
    match a with
    | ⟨0, _⟩ => exact (dotD_rhs0 _ _).trans hk
    | ⟨1, _⟩ => exact dotD_rhs1 _ _)
  rw [el, er]

/-- Adding the bias broadcast over the rows and taking the maximum with a broadcast zero is the hidden activation. -/
theorem ref_hid (a : FVec Ideal Cert.ReferenceIdeal.S50000x64 .f32) (b : FVec Ideal Cert.ReferenceIdeal.S64 .f32) :
    maximumf (addf a (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 b)))
      (broadcastInDim Cert.ReferenceIdeal.S50000x64 ![] Cert.ReferenceIdeal.Facts₀.bcast_S_S50000x64 (constant (F := Ideal) Cert.ReferenceIdeal.S_ .f32 0x00000000#32)) = hid a b := by
  funext i
  show max (a i + broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 b) i)
      (broadcastInDim Cert.ReferenceIdeal.S50000x64 ![] Cert.ReferenceIdeal.Facts₀.bcast_S_S50000x64 (constant (F := Ideal) Cert.ReferenceIdeal.S_ .f32 0x00000000#32) i) = _
  rw [broadcastInDim_apply _ Cert.ReferenceIdeal.Facts₀.bcast_S1x64_S50000x64_0_1 _ i (ix2 (n0 := 1) (n1 := 64) 0 ⟨(i 1).val, (i 1).isLt⟩) (fun ax => match ax with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ Cert.ReferenceIdeal.Facts₀.bcast_S64_S1x64_1 b _ (ix1 (n := 64) ⟨(i 1).val, (i 1).isLt⟩) (fun ax => match ax with
      | ⟨0, _⟩ => by show (i 1).val = if (64 : Nat) = 1 then 0 else (i 1).val; rw [if_neg (by decide)]),
    broadcastInDim_apply _ Cert.ReferenceIdeal.Facts₀.bcast_S_S50000x64 _ i ix0 (fun ax => ax.elim0)]
  show max _ (Ideal.ofBits .f32 0x00000000#32) = _
  rw [Ideal.ofBits_zero_f32]
  rfl

variable (m : (ℓ : Loc Cert.ReferenceIdeal.nD Cert.ReferenceIdeal.τ Cert.ReferenceIdeal.sig) → Buf (Elt Ideal) ℓ) (c : Dev Cert.ReferenceIdeal.nD)

set_option maxHeartbeats 4000000 in
/-- The reference's result term, with its graph operations named and its dense parts still the host's. -/
theorem res_named : Cert.ReferenceIdeal.ValueP.res_main_v91 (F := Ideal) m c
    = output (m ((c.tc : Thread Cert.ReferenceIdeal.nD Cert.ReferenceIdeal.τ).loc Cert.ReferenceIdeal.main_arg1))
        (Host.dotGeneral (F := Ideal) (φ₁ := .f32) (φ₂ := .f32) Cert.ReferenceIdeal.dot_S50000x64_S64x1_S50000x1_1_0_0_1_n_n none
          (maximumf (addf (aggregate64 (m ((c.tc : Thread Cert.ReferenceIdeal.nD Cert.ReferenceIdeal.τ).loc Cert.ReferenceIdeal.main_arg1))
              (Host.dotGeneral (F := Ideal) (φ₁ := .f32) (φ₂ := .f32) Cert.ReferenceIdeal.dot_S50000x64_S64x64_S50000x64_1_0_0_1_n_n none (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))))
            (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 (m ((c.tc : Thread Cert.ReferenceIdeal.nD Cert.ReferenceIdeal.τ).loc Cert.ReferenceIdeal.main_arg3)))))
            (broadcastInDim Cert.ReferenceIdeal.S50000x64 ![] Cert.ReferenceIdeal.Facts₀.bcast_S_S50000x64 (constant (F := Ideal) Cert.ReferenceIdeal.S_ .f32 0x00000000#32)))
          (m ((c.tc : Thread Cert.ReferenceIdeal.nD Cert.ReferenceIdeal.τ).loc Cert.ReferenceIdeal.main_arg4)))
        (m ((c.tc : Thread Cert.ReferenceIdeal.nD Cert.ReferenceIdeal.τ).loc Cert.ReferenceIdeal.main_arg5)) := by
  unfold Cert.ReferenceIdeal.ValueP.res_main_v91
  rfl

/-- The reference's result is the two-layer graph convolution of its arguments. -/
theorem res_eq : Cert.ReferenceIdeal.ValueP.res_main_v91 (F := Ideal) m c
    = output (m ((c.tc : Thread Cert.ReferenceIdeal.nD Cert.ReferenceIdeal.τ).loc Cert.ReferenceIdeal.main_arg1))
        (lin2 (hid (aggregate64 (m ((c.tc : Thread Cert.ReferenceIdeal.nD Cert.ReferenceIdeal.τ).loc Cert.ReferenceIdeal.main_arg1))
              (lin1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))))
            (m ((c.tc : Thread Cert.ReferenceIdeal.nD Cert.ReferenceIdeal.τ).loc Cert.ReferenceIdeal.main_arg3)))
          (m ((c.tc : Thread Cert.ReferenceIdeal.nD Cert.ReferenceIdeal.τ).loc Cert.ReferenceIdeal.main_arg4)))
        (m ((c.tc : Thread Cert.ReferenceIdeal.nD Cert.ReferenceIdeal.τ).loc Cert.ReferenceIdeal.main_arg5)) := by
  rw [res_named, ref_lin1, ref_hid, ref_lin2]

end Cert.ReferenceIdeal.RefValue

end
-- ==== Proof.lean ====
/-
  A two-layer graph convolution computed two ways, and why the two results agree on the extended reals.

  Both programs take node features x (50000 × 64), an edge list e, and two layers' weights and biases,
  add a self-loop per node, weight every edge by 1/√(deg src · deg dst), and compute

      out = A (relu (A (x · W₁) + b₁) · W₂) + b₂,        A = the weighted neighbourhood sum over the edges.

  The reference forms the two dense products x · W₁ and h · W₂ as whole contractions on the host. The
  kernel program forms them in two tiled regions, ten blocks of 5000 rows each (the second region also
  adds the bias and applies the rectifier to its block first), with the very same host operations for
  the neighbourhood sums before, between and after the regions.

  The proof:
    * Proof/Spec.lean    — the two dense products and the hidden activation as plain sums and a maximum;
    * Proof/Dense.lean   — each kernel body's stored block, entry by entry, is such a sum (a change of float
                           format is the identity on the extended reals, the accumulator starts at zero);
    * Proof/KBlocks.lean — the ten blocks tile the output, so each region leaves the whole product;
    * Proof/Graph.lean   — the shared host operations, named and never opened;
    * Proof/KRun.lean, Proof/KFold.lean — the kernel program's run, and its result read back through the
                           host stretches and the two regions;
    * Proof/RefRun.lean, Proof/RefValue.lean — the reference's run, and its result in the same words;
  and here the two results are one term of arguments that agree. No step uses that the inputs are finite:
  both sides form the same sums of the same products in the commutative monoid of the extended reals, so the
  precondition is never opened. The idealization rewrote nothing, so it preserves the kernel trivially.
-/
import proofs.«118950_j3573412790951_1_alg».proof.Defs
import proofs.«118950_j3573412790951_1_alg».proof.Proof.KFold
import proofs.«118950_j3573412790951_1_alg».proof.Proof.RefValue
import proofs.«118950_j3573412790951_1_alg».proof.Proof.Gen.Kernel
import proofs.«118950_j3573412790951_1_alg».proof.Proof.Gen.Kernel.Frame
import proofs.«118950_j3573412790951_1_alg».proof.Proof.Gen.KernelIdeal
import proofs.«118950_j3573412790951_1_alg».proof.Proof.Gen.KernelIdeal.Frame
import proofs.«118950_j3573412790951_1_alg».proof.Proof.Gen.ReferenceIdeal
import proofs.«118950_j3573412790951_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the two-layer graph convolution of their arguments, and the arguments agree. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.RefValue.res_eq m' c, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
